-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x128 : Shape := ⟨3, ![8, 4096, 128]⟩
abbrev S_ : Shape := ⟨0, ![]⟩

class Facts : Prop where
  bcast_S_S8x4096x128 : S_.BroadcastsInDim S8x4096x128 (![] : Fin 0 → Fin S8x4096x128.rank)
  reducesTo_S8x4096x128_S_d0_1_2 : S8x4096x128.ReducesTo [0, 1, 2] S_
  h_S_ : 0 < S_.numel

variable [Facts]

def fn {F : FTy → Type} [FloatOps F] (main_arg0 : FVec F S8x4096x128 .f32) (main_arg1 : FVec F S8x4096x128 .f32) : IVec S_ 1 :=
  let main_v0 : FVec F S8x4096x128 .f32 := Host.absf main_arg0
  let main_cst : FVec F S_ .f32 := constant S_ .f32 0x7F800000#32
  let main_v1 : FVec F S8x4096x128 .f32 := broadcastInDim S8x4096x128 ![] bcast_S_S8x4096x128 main_cst
  let main_v2 : IVec S8x4096x128 1 := cmpf .olt main_v0 main_v1
  let main_c : IVec S_ 1 := constantI S_ 1 1#1
  let main_v3 : IVec S_ 1 := (fun x v => Host.reduce IntOp.andi x v reducesTo_S8x4096x128_S_d0_1_2 h_S_) main_v2 main_c
  let main_v4 : FVec F S8x4096x128 .f32 := Host.absf main_arg1
  let main_cst_0 : FVec F S_ .f32 := constant S_ .f32 0x7F800000#32
  let main_v5 : FVec F S8x4096x128 .f32 := broadcastInDim S8x4096x128 ![] bcast_S_S8x4096x128 main_cst_0
  let main_v6 : IVec S8x4096x128 1 := cmpf .olt main_v4 main_v5
  let main_c_1 : IVec S_ 1 := constantI S_ 1 1#1
  let main_v7 : IVec S_ 1 := (fun x v => Host.reduce IntOp.andi x v reducesTo_S8x4096x128_S_d0_1_2 h_S_) main_v6 main_c_1
  let main_v8 : IVec S_ 1 := andi main_v3 main_v7
  main_v8
-- ==== Kernel.lean ====
abbrev S8x4096x128 : Shape := ⟨3, ![8, 4096, 128]⟩
abbrev S_ : Shape := ⟨0, ![]⟩
abbrev S8x4096 : Shape := ⟨2, ![8, 4096]⟩
abbrev S8x8x4096 : Shape := ⟨3, ![8, 8, 4096]⟩
abbrev S8x512x128 : Shape := ⟨3, ![8, 512, 128]⟩
abbrev S8x512 : Shape := ⟨2, ![8, 512]⟩
abbrev S1x8x512 : Shape := ⟨3, ![1, 8, 512]⟩
abbrev S8x512x512 : Shape := ⟨3, ![8, 512, 512]⟩
abbrev S8x512x1 : Shape := ⟨3, ![8, 512, 1]⟩
abbrev S8x1x512 : Shape := ⟨3, ![8, 1, 512]⟩

abbrev nBuf : Space → Nat
  | .hbm => 23
  | .vmem => 13
  | .smem => 0
  | _ => 0

abbrev bufTy : (tb : Table) → Fin (tcTables nBuf tb) → BufTy
  | .hbm, ⟨0, _⟩ => ⟨S8x4096x128, .f32⟩
  | .hbm, ⟨1, _⟩ => ⟨S8x4096x128, .f32⟩
  | .hbm, ⟨2, _⟩ => ⟨S8x4096x128, .f32⟩
  | .hbm, ⟨3, _⟩ => ⟨S_, .f32⟩
  | .hbm, ⟨4, _⟩ => ⟨S8x4096, .f32⟩
  | .hbm, ⟨5, _⟩ => ⟨S8x4096x128, .f32⟩
  | .hbm, ⟨6, _⟩ => ⟨S_, .f32⟩
  | .hbm, ⟨7, _⟩ => ⟨S8x4096, .f32⟩
  | .hbm, ⟨8, _⟩ => ⟨S8x4096x128, .bf16⟩
  | .hbm, ⟨9, _⟩ => ⟨S8x4096x128, .bf16⟩
  | .hbm, ⟨10, _⟩ => ⟨S8x4096, .f32⟩
  | .hbm, ⟨11, _⟩ => ⟨S8x8x4096, .f32⟩
  | .hbm, ⟨12, _⟩ => ⟨S_, .f32⟩
  | .hbm, ⟨13, _⟩ => ⟨S8x4096, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S8x512x128, .bf16⟩
  | .local _ .vmem, ⟨1, _⟩ => ⟨S8x512x128, .bf16⟩
  | .local _ .vmem, ⟨2, _⟩ => ⟨S8x512x128, .bf16⟩
  | .local _ .vmem, ⟨3, _⟩ => ⟨S8x512x128, .bf16⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512, .f32⟩
  | .local _ .vmem, ⟨8, _⟩ => ⟨S8x512, .f32⟩
  | .local _ .vmem, ⟨9, _⟩ => ⟨S8x512, .f32⟩
  | .local _ .vmem, ⟨10, _⟩ => ⟨S1x8x512, .f32⟩
  | .local _ .vmem, ⟨11, _⟩ => ⟨S1x8x512, .f32⟩
  | .local _ .vmem, ⟨12, _⟩ => ⟨S8x512, .f32⟩
  | _, _ => ⟨S8x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_cst_4 : Ref sig .tc := ⟨.hbm, 18, rfl⟩
abbrev main_v10 : Ref sig .tc := ⟨.hbm, 19, rfl⟩
abbrev main_cst_5 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v29 : BitVec 1 := Scalar.cmpi .eq arg1 c7_i32
  let v30 : BitVec 32 := Scalar.extui v29
  let c0_i32_20 : BitVec 32 := 0#32
  let v31 : BitVec 1 := Scalar.cmpi .ne v30 c0_i32_20
  v31

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  reducesTo_S8x4096x128_S8x4096_d2 : S8x4096x128.ReducesTo [2] S8x4096
  h_S_ : 0 < S_.numel
  bitsLt_bf16_f32 : FTy.bits .bf16 < FTy.bits .f32
  inb_S8x512_S8x512_0_0 : ∀ a, (![0, 0] : Fin 2 → Nat) a + S8x512.size a ≤ S8x512.size a
  h_S8x512 : 0 < S8x512.numel
  shapeCasts_S8x512_S8x512 : S8x512.ShapeCasts S8x512
  inb_S8x512x128_S8x512x128_0_0_0 : ∀ a, (![0, 0, 0] : Fin 3 → Nat) a + S8x512x128.size a ≤ S8x512x128.size a
  h_S8x512x128 : 0 < S8x512x128.numel
  shapeCasts_S8x512x128_S8x512x128 : S8x512x128.ShapeCasts S8x512x128
  shapeCasts_S8x512_S8x512x1 : S8x512.ShapeCasts S8x512x1
  shapeCasts_S8x512_S8x1x512 : S8x512.ShapeCasts S8x1x512
  broadcasts_S8x512x1_S8x512x512 : S8x512x1.Broadcasts S8x512x512
  broadcasts_S8x1x512_S8x512x512 : S8x1x512.Broadcasts S8x512x512
  reduces_S8x512x512_S8x512 : S8x512x512.Reduces [2] S8x512
  reduces_S8x512x512_S8x512_2 : S8x512x512.Reduces [1] S8x512
  shapeCasts_S8x512_S1x8x512 : S8x512.ShapeCasts S1x8x512
  inb_S1x8x512_S1x8x512_0_0_0 : ∀ a, (![0, 0, 0] : Fin 3 → Nat) a + S1x8x512.size a ≤ S1x8x512.size a
  h_S1x8x512 : 0 < S1x8x512.numel
  reducesTo_S8x8x4096_S8x4096_d0 : S8x8x4096.ReducesTo [0] S8x4096
  reducesTo_S8x4096_S_d0_1 : S8x4096.ReducesTo [0, 1] S_
  dot_S8x512x128_S8x512x128_S8x512x512_2_2_1_1_0_0_wf : DotDims.WF S8x512x128 S8x512x128 S8x512x512 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x128.size a ≤ S8x4096x128.size a
  hwx0_0 : ∀ i : grid0.Coords, EltTy.bits .bf16 = 32 ∨ (Rect.block (s := S8x4096x128) S8x512x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512x128.size a ≤ S8x4096x128.size a
  hwx0_1 : ∀ i : grid0.Coords, EltTy.bits .bf16 = 32 ∨ (Rect.block (s := S8x4096x128) S8x512x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S8x4096.size a
  hwx0_2 : ∀ i : grid0.Coords, EltTy.bits .f32 = 32 ∨ (Rect.block (s := S8x4096) S8x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x512.size a ≤ S8x4096.size a
  hwx0_3 : ∀ i : grid0.Coords, EltTy.bits .f32 = 32 ∨ (Rect.block (s := S8x4096) S8x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x512.size a ≤ S8x4096.size a
  hwx0_4 : ∀ i : grid0.Coords, EltTy.bits .f32 = 32 ∨ (Rect.block (s := S8x4096) S8x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x512.size a ≤ S8x8x4096.size a
  hwx0_5 : ∀ i : grid0.Coords, EltTy.bits .f32 = 32 ∨ (Rect.block (s := S8x8x4096) S1x8x512.size (cc0_transform_5 i) (hinb0_5 i)).WholeWords (EltTy.packing .f32)

variable [Facts₀]

def dot_S8x512x128_S8x512x128_S8x512x512_2_2_1_1_0_0 : DotDims S8x512x128 S8x512x128 S8x512x512 where
  lhsContracting := [2]
  rhsContracting := [2]
  lhsNonContracting := [1]
  rhsNonContracting := [1]
  lhsBatch := [0]
  rhsBatch := [0]
  wf := dot_S8x512x128_S8x512x128_S8x512x512_2_2_1_1_0_0_wf

abbrev win0_0 : Pipeline.Window sig grid0 :=
  Pipeline.Window.ofSpec (Memref.whole main_v4) S8x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S8x512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S8x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_0) S8x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_1) S1x8x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun _ => false | ⟨_ + 6, h⟩ => absurd h (Nat.not_lt.2 (Nat.le_add_left _ _))

class Facts : Prop extends Facts₀ where

variable [Facts]
-- ==== ReferenceIdeal.lean ====
abbrev S8x4096x128 : Shape := ⟨3, ![8, 4096, 128]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩

abbrev nBuf : Space → Nat
  | .hbm => 31
  | .vmem => 0
  | .smem => 0
  | _ => 0

abbrev bufTy : (tb : Table) → Fin (tcTables nBuf tb) → BufTy
  | .hbm, ⟨0, _⟩ => ⟨S8x4096x128, .f32⟩
  | .hbm, ⟨1, _⟩ => ⟨S8x4096x128, .f32⟩
  | .hbm, ⟨2, _⟩ => ⟨S8x4096x128, .f32⟩
  | .hbm, ⟨3, _⟩ => ⟨S_, .f32⟩
  | .hbm, ⟨4, _⟩ => ⟨S8x4096, .f32⟩
  | .hbm, ⟨5, _⟩ => ⟨S8x4096x128, .f32⟩
  | .hbm, ⟨6, _⟩ => ⟨S_, .f32⟩
  | .hbm, ⟨7, _⟩ => ⟨S8x4096, .f32⟩
  | .hbm, ⟨8, _⟩ => ⟨S8x4096x4096, .f32⟩
  | .hbm, ⟨9, _⟩ => ⟨S8x4096x1, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096, .f32⟩
  | .hbm, ⟨20, _⟩ => ⟨S_, .f32⟩
  | .hbm, ⟨21, _⟩ => ⟨S8x4096, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S8x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_cst_6 : Ref sig .tc := ⟨.hbm, 26, rfl⟩
abbrev main_v17 : Ref sig .tc := ⟨.hbm, 27, rfl⟩
abbrev main_cst_7 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]

class Facts₀ : Prop where
  reducesTo_S8x4096x128_S8x4096_d2 : S8x4096x128.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096x4096_S8x4096_d1 : S8x4096x4096.ReducesTo [1] S8x4096
  reducesTo_S8x4096_S_d0_1 : S8x4096.ReducesTo [0, 1] S_
  dot_S8x4096x128_S8x4096x128_S8x4096x4096_2_2_1_1_0_0_wf : DotDims.WF S8x4096x128 S8x4096x128 S8x4096x4096 [2] [2] [1] [1] [0] [0]

variable [Facts₀]

def dot_S8x4096x128_S8x4096x128_S8x4096x4096_2_2_1_1_0_0 : DotDims S8x4096x128 S8x4096x128 S8x4096x4096 where
  lhsContracting := [2]
  rhsContracting := [2]
  lhsNonContracting := [1]
  rhsNonContracting := [1]
  lhsBatch := [0]
  rhsBatch := [0]
  wf := dot_S8x4096x128_S8x4096x128_S8x4096x4096_2_2_1_1_0_0_wf

class Facts : Prop extends Facts₀ where

variable [Facts]
-- ==== Proof.CaseValues.lean ====
/-
  What one grid step leaves behind, read back as values.

  A grid step (n, m) sees the tile of first points n and the tile of second points m.  It forms the 512 × 512 table
  of squared distances between the two tiles, lowers a running row minimum carried from step to step along m, and
  writes the table's column minima out.  The step is run in three control cases: the first step of a row of steps
  (m = 0) first resets the running minimum to +∞; a middle step only lowers it; the last step (m = 7) lowers it and
  then copies it to the first output.  In every case the running minimum ends at
  `min (previous) (row minima of the tile's table)` and the second output's block at the table's column minima.
-/
import proofs.«100955_j8821862826558_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.CaseValues

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## First step of a row of steps: the running minimum restarts from +∞ -/

theorem acc_first (c : Dev nD) (i : grid0.Coords) (arg2 : Memref sig .tc .vmem S8x512x128 .bf16) (harg2 : arg2.IsWhole) (arg3 : Memref sig .tc .vmem S8x512x128 .bf16) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (arg7 : Memref sig .tc .vmem S1x8x512 .f32) (harg7 : arg7.IsWhole) (arg8 : Memref sig .tc .vmem S8x512 .f32) (harg8 : arg8.IsWhole) (hc0 : cond0_0 i) (hc1 : ¬cond0_1 i) (x0 : Vec F S8x512x128 .bf16) (x1 : Vec F S8x512x128 .bf16) (x2 : Vec F S8x512 .f32) (x3 : Vec F S8x512 .f32) :
    sout0_A_0 c i arg2 harg2 arg3 harg3 arg4 harg4 arg5 harg5 arg6 harg6 arg7 harg7 arg8 harg8 hc0 hc1 x0 x1 x2 x3 = k0_pay3 x0 x1 x2 x3 k0_pay1 := by
  unfold sout0_A_0
  rw [View.read_writes_eq_canon _ _ _ (scover0_A_0 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S8x512) hz2, View.readCov_unit_zero (S := S8x512) _ hz2]
  simp only [View.readAt_eq_ld, harg2.read_unread, harg3.read_unread, harg4.read_unread, harg5.read_unread, harg8.read_unread, View.ld_unit_zero (S := S8x512x128) hz3, View.ld_unit_zero (S := S8x512) hz2]

theorem cols_first (c : Dev nD) (i : grid0.Coords) (arg2 : Memref sig .tc .vmem S8x512x128 .bf16) (harg2 : arg2.IsWhole) (arg3 : Memref sig .tc .vmem S8x512x128 .bf16) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (arg7 : Memref sig .tc .vmem S1x8x512 .f32) (harg7 : arg7.IsWhole) (arg8 : Memref sig .tc .vmem S8x512 .f32) (harg8 : arg8.IsWhole) (hc0 : cond0_0 i) (hc1 : ¬cond0_1 i) (x0 : Vec F S8x512x128 .bf16) (x1 : Vec F S8x512x128 .bf16) (x2 : Vec F S8x512 .f32) (x3 : Vec F S8x512 .f32) :
    out0_A_5 c i arg2 harg2 arg3 harg3 arg4 harg4 arg5 harg5 arg6 harg6 arg7 harg7 arg8 harg8 hc0 hc1 x0 x1 x2 x3 = k0_pay4 x0 x1 x2 x3 := by
  unfold out0_A_5
  rw [View.read_writes_eq_canon _ _ _ (cover0_A_5 c i arg2 harg2 arg3 harg3 arg4 harg4 arg5 harg5 arg6 harg6 arg7 harg7 arg8 harg8 hc0 hc1 x0 x1 x2 x3)]
  unfold kernelRun0_A
  dsimp only
  sl_unfold_words
  rw [View.canon_unit_zero hz3]
  simp only [View.readAt_eq_ld, harg2.read_unread, harg3.read_unread, harg4.read_unread, harg5.read_unread, harg8.read_unread, View.ld_unit_zero (S := S8x512x128) hz3, View.ld_unit_zero (S := S8x512) hz2]

/-! ## A middle step: the running minimum is lowered by this tile's row minima -/

theorem acc_middle (c : Dev nD) (i : grid0.Coords) (arg2 : Memref sig .tc .vmem S8x512x128 .bf16) (harg2 : arg2.IsWhole) (arg3 : Memref sig .tc .vmem S8x512x128 .bf16) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (arg7 : Memref sig .tc .vmem S1x8x512 .f32) (harg7 : arg7.IsWhole) (arg8 : Memref sig .tc .vmem S8x512 .f32) (harg8 : arg8.IsWhole) (hc0 : ¬cond0_0 i) (hc1 : ¬cond0_1 i) (x0 : Vec F S8x512x128 .bf16) (x1 : Vec F S8x512x128 .bf16) (x2 : Vec F S8x512 .f32) (x3 : Vec F S8x512 .f32) (xs0 : Vec F S8x512 .f32) :
    sout0_B_0 c i arg2 harg2 arg3 harg3 arg4 harg4 arg5 harg5 arg6 harg6 arg7 harg7 arg8 harg8 hc0 hc1 x0 x1 x2 x3 xs0 = k0_pay3 x0 x1 x2 x3 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 xs0)]
  unfold kernelRun0_B
  dsimp only
  rw [View.canon_unit_zero hz2]
  simp only [View.readAt_eq_ld, harg2.read_unread, harg3.read_unread, harg4.read_unread, harg5.read_unread, harg8.read_unread, View.ld_unit_zero (S := S8x512x128) hz3, View.ld_unit_zero (S := S8x512) hz2]

theorem cols_middle (c : Dev nD) (i : grid0.Coords) (arg2 : Memref sig .tc .vmem S8x512x128 .bf16) (harg2 : arg2.IsWhole) (arg3 : Memref sig .tc .vmem S8x512x128 .bf16) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (arg7 : Memref sig .tc .vmem S1x8x512 .f32) (harg7 : arg7.IsWhole) (arg8 : Memref sig .tc .vmem S8x512 .f32) (harg8 : arg8.IsWhole) (hc0 : ¬cond0_0 i) (hc1 : ¬cond0_1 i) (x0 : Vec F S8x512x128 .bf16) (x1 : Vec F S8x512x128 .bf16) (x2 : Vec F S8x512 .f32) (x3 : Vec F S8x512 .f32) (xs0 : Vec F S8x512 .f32) :
    out0_B_5 c i arg2 harg2 arg3 harg3 arg4 harg4 arg5 harg5 arg6 harg6 arg7 harg7 arg8 harg8 hc0 hc1 x0 x1 x2 x3 xs0 = k0_pay4 x0 x1 x2 x3 := by
  unfold out0_B_5
  rw [View.read_writes_eq_canon _ _ _ (cover0_B_5 c i arg2 harg2 arg3 harg3 arg4 harg4 arg5 harg5 arg6 harg6 arg7 harg7 arg8 harg8 hc0 hc1 x0 x1 x2 x3 xs0)]
  unfold kernelRun0_B
  dsimp only
  rw [View.canon_unit_zero hz3]
  simp only [View.readAt_eq_ld, harg2.read_unread, harg3.read_unread, harg4.read_unread, harg5.read_unread, harg8.read_unread, View.ld_unit_zero (S := S8x512x128) hz3, View.ld_unit_zero (S := S8x512) hz2]

/-! ## The last step: lowered once more, then copied to the first output -/

theorem acc_last (c : Dev nD) (i : grid0.Coords) (arg2 : Memref sig .tc .vmem S8x512x128 .bf16) (harg2 : arg2.IsWhole) (arg3 : Memref sig .tc .vmem S8x512x128 .bf16) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (arg7 : Memref sig .tc .vmem S1x8x512 .f32) (harg7 : arg7.IsWhole) (arg8 : Memref sig .tc .vmem S8x512 .f32) (harg8 : arg8.IsWhole) (hc0 : ¬cond0_0 i) (hc1 : cond0_1 i) (x0 : Vec F S8x512x128 .bf16) (x1 : Vec F S8x512x128 .bf16) (x2 : Vec F S8x512 .f32) (x3 : Vec F S8x512 .f32) (xs0 : Vec F S8x512 .f32) :
    sout0_C_0 c i arg2 harg2 arg3 harg3 arg4 harg4 arg5 harg5 arg6 harg6 arg7 harg7 arg8 harg8 hc0 hc1 x0 x1 x2 x3 xs0 = k0_pay3 x0 x1 x2 x3 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 xs0)]
  unfold kernelRun0_C
  dsimp only
  sl_unfold_words
  rw [View.canon_unit_zero hz2]
  simp only [View.readAt_eq_ld, harg2.read_unread, harg3.read_unread, harg4.read_unread, harg5.read_unread, harg8.read_unread, View.ld_unit_zero (S := S8x512x128) hz3, View.ld_unit_zero (S := S8x512) hz2]

theorem cols_last (c : Dev nD) (i : grid0.Coords) (arg2 : Memref sig .tc .vmem S8x512x128 .bf16) (harg2 : arg2.IsWhole) (arg3 : Memref sig .tc .vmem S8x512x128 .bf16) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (arg7 : Memref sig .tc .vmem S1x8x512 .f32) (harg7 : arg7.IsWhole) (arg8 : Memref sig .tc .vmem S8x512 .f32) (harg8 : arg8.IsWhole) (hc0 : ¬cond0_0 i) (hc1 : cond0_1 i) (x0 : Vec F S8x512x128 .bf16) (x1 : Vec F S8x512x128 .bf16) (x2 : Vec F S8x512 .f32) (x3 : Vec F S8x512 .f32) (xs0 : Vec F S8x512 .f32) :
    out0_C_5 c i arg2 harg2 arg3 harg3 arg4 harg4 arg5 harg5 arg6 harg6 arg7 harg7 arg8 harg8 hc0 hc1 x0 x1 x2 x3 xs0 = k0_pay4 x0 x1 x2 x3 := by
  unfold out0_C_5
  rw [View.read_writes_eq_canon _ _ _ (cover0_C_5 c i arg2 harg2 arg3 harg3 arg4 harg4 arg5 harg5 arg6 harg6 arg7 harg7 arg8 harg8 hc0 hc1 x0 x1 x2 x3 xs0)]
  unfold kernelRun0_C
  dsimp only
  sl_unfold_words
  rw [View.canon_unit_zero hz3]
  simp only [View.readAt_eq_ld, harg2.read_unread, harg3.read_unread, harg4.read_unread, harg5.read_unread, harg8.read_unread, View.ld_unit_zero (S := S8x512x128) hz3, View.ld_unit_zero (S := S8x512) hz2]

theorem rows_last (c : Dev nD) (i : grid0.Coords) (arg2 : Memref sig .tc .vmem S8x512x128 .bf16) (harg2 : arg2.IsWhole) (arg3 : Memref sig .tc .vmem S8x512x128 .bf16) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (arg7 : Memref sig .tc .vmem S1x8x512 .f32) (harg7 : arg7.IsWhole) (arg8 : Memref sig .tc .vmem S8x512 .f32) (harg8 : arg8.IsWhole) (hc0 : ¬cond0_0 i) (hc1 : cond0_1 i) (x0 : Vec F S8x512x128 .bf16) (x1 : Vec F S8x512x128 .bf16) (x2 : Vec F S8x512 .f32) (x3 : Vec F S8x512 .f32) (xs0 : Vec F S8x512 .f32) :
    out0_C_4 c i arg2 harg2 arg3 harg3 arg4 harg4 arg5 harg5 arg6 harg6 arg7 harg7 arg8 harg8 hc0 hc1 x0 x1 x2 x3 xs0 = k0_pay3 x0 x1 x2 x3 xs0 := by
  unfold out0_C_4
  rw [View.read_writes_eq_canon _ _ _ (cover0_C_4 c i arg2 harg2 arg3 harg3 arg4 harg4 arg5 harg5 arg6 harg6 arg7 harg7 arg8 harg8 hc0 hc1 x0 x1 x2 x3 xs0)]
  unfold kernelRun0_C
  dsimp only
  sl_unfold_words
  rw [View.canon_unit_zero hz2, View.readCov_unit_zero (S := S8x512) _ hz2]
  simp only [View.readAt_eq_ld, harg2.read_unread, harg3.read_unread, harg4.read_unread, harg5.read_unread, harg8.read_unread, View.ld_unit_zero (S := S8x512x128) hz3, View.ld_unit_zero (S := S8x512) hz2]

end Cert.KernelIdeal.CaseValues

end
-- ==== Proof.MinLaw.lean ====
/-
  Minima over a tiled index range, on any linear order (the extended reals are one).

  A table indexed by 4096 positions is cut into 8 tiles of 512.  Position `512·n + r` is entry `r` of tile `n`.
  "The minimum from a start value `a`" of a finite family is `min a (min f₀ (min f₁ …))`; whatever the order of
  the entries, `z` is below it exactly when `z` is below `a` and below every entry.  Two consequences are proved:
  taking the minimum tile by tile and then across the tiles gives the minimum over all positions, and a running
  minimum lowered by one tile at a time reaches, after the last tile, the minimum over all positions.  Neither needs
  the start value to be the top element, nor any finiteness of the entries.
-/
import Mathlib.Data.Finset.Fold
import Mathlib.Data.Fintype.Basic
import Mathlib.Order.Lattice

namespace Chamfer

variable {α : Type} [LinearOrder α]

/-- Entry `r` of tile `n`. -/
def tileIdx (n : Fin 8) (r : Fin 512) : Fin 4096 := ⟨512 * n.val + r.val, by have := n.isLt; have := r.isLt; omega⟩

@[simp] theorem tileIdx_val (n : Fin 8) (r : Fin 512) : (tileIdx n r).val = 512 * n.val + r.val := rfl

/-- Every position is an entry of a tile. -/
theorem exists_tile (i : Fin 4096) : ∃ (n : Fin 8) (r : Fin 512), i = tileIdx n r :=
  ⟨⟨i.val / 512, by have := i.isLt; omega⟩, ⟨i.val % 512, Nat.mod_lt _ (by decide)⟩, Fin.ext (by simp [tileIdx]; omega)⟩

theorem forall_tile {P : Fin 4096 → Prop} : (∀ i, P i) ↔ ∀ n r, P (tileIdx n r) :=
  ⟨fun h n r => h _, fun h i => by obtain ⟨n, r, rfl⟩ := exists_tile i; exact h n r⟩

/-- The minimum, from the start value `a`, of a family over a whole finite index type. -/
def minFrom {ι : Type} [Fintype ι] (a : α) (f : ι → α) : α := Finset.univ.fold min a f

/-- Its universal property. -/
theorem le_minFrom {ι : Type} [Fintype ι] (a : α) (f : ι → α) (z : α) : z ≤ minFrom a f ↔ z ≤ a ∧ ∀ k, z ≤ f k := by
  unfold minFrom
  rw [Finset.le_fold_min]
  simp

/-- Tile by tile, then across the tiles: the minimum over all positions. -/
theorem minFrom_tiles (a : α) (h : Fin 4096 → α) :
    minFrom a (fun n : Fin 8 => minFrom a (fun r : Fin 512 => h (tileIdx n r))) = minFrom a h := by
  refine eq_of_forall_le_iff fun z => ?_
  simp only [le_minFrom]
  rw [forall_tile]
  exact ⟨fun ⟨ha, hk⟩ => ⟨ha, fun n r => (hk n).2 r⟩, fun ⟨ha, hk⟩ => ⟨ha, fun n => ⟨ha, hk n⟩⟩⟩

/-- `x` is the minimum, from `a`, over the positions of tiles `0 … m`. -/
def MinUpTo (a : α) (h : Fin 4096 → α) (m : ℕ) (x : α) : Prop :=
  ∀ z, z ≤ x ↔ z ≤ a ∧ ∀ (n : Fin 8) (r : Fin 512), n.val ≤ m → z ≤ h (tileIdx n r)

/-- Restarting from `a` and lowering by tile 0. -/
theorem minUpTo_first (a : α) (h : Fin 4096 → α) (t0 : Fin 8) (ht : t0.val = 0) :
    MinUpTo a h 0 (min a (minFrom a fun r => h (tileIdx t0 r))) := by
  intro z
  rw [le_min_iff, le_minFrom]
  refine ⟨fun ⟨ha, _, hk⟩ => ⟨ha, fun n r hn => ?_⟩, fun ⟨ha, hk⟩ => ⟨ha, ha, fun r => hk t0 r (by omega)⟩⟩
  obtain rfl : n = t0 := Fin.ext (by omega)
  exact hk r

/-- Lowering a minimum over tiles `0 … m` by tile `m + 1`. -/
theorem minUpTo_next (a : α) (h : Fin 4096 → α) (m : ℕ) (x : α) (hx : MinUpTo a h m x) (t : Fin 8) (ht : t.val = m + 1) :
    MinUpTo a h (m + 1) (min x (minFrom a fun r => h (tileIdx t r))) := by
  intro z
  rw [le_min_iff, le_minFrom, hx z]
  refine ⟨fun ⟨⟨ha, hk⟩, _, hk'⟩ => ⟨ha, fun n r hn => ?_⟩, fun ⟨ha, hk⟩ => ⟨⟨ha, fun n r hn => hk n r (by omega)⟩, ha, fun r => hk t r (by omega)⟩⟩
  by_cases hn' : n.val ≤ m
  · exact hk n r hn'
  · obtain rfl : n = t := Fin.ext (by omega)
    exact hk' r

/-- After the last tile: the minimum over all positions. -/
theorem minUpTo_last (a : α) (h : Fin 4096 → α) (x : α) (hx : MinUpTo a h 7 x) : x = minFrom a h := by
  refine eq_of_forall_le_iff fun z => ?_
  rw [hx z, le_minFrom, forall_tile]
  exact ⟨fun ⟨ha, hk⟩ => ⟨ha, fun n r => hk n r (by have := n.isLt; omega)⟩, fun ⟨ha, hk⟩ => ⟨ha, fun n r _ => hk n r⟩⟩

end Chamfer
-- ==== Proof.Spec.lean ====
/-
  The specification: what both programs compute, as functions of the argument arrays.

  For a batch `b`, a first point `i` and a second point `j` the squared distance is expanded as
  `‖x‖² + ‖y‖² − 2·⟨x, y⟩`: the two squared norms come in as arrays, the inner product is the sum over the 128
  coordinates of the products.  The nearest-neighbour value of a first point is the minimum over all second points
  of that table, started from the float pattern of +∞, and symmetrically for a second point.  The same expansion on
  a 512 × 512 tile of the table is what one grid step forms.  The constants 2 and +∞ are kept as the bit patterns
  both programs print; nothing here evaluates them.
-/
import Idealize.ShloMosaic.PureOps.Ideal
import Idealize.ShloMosaic.PureOps
import Idealize.ShloMosaic.Lib.ValueIdx
import proofs.«100955_j8821862826558_2_alg».proof.Proof.MinLaw

noncomputable section

namespace Chamfer

open Idealize.ShloMosaic Idealize.ShloMosaic.ValueIdx

/-- The pattern of +∞, as an extended real. -/
abbrev top : EReal := Ideal.ofBits .f32 0x7F800000#32
/-- The pattern of 2.0, as an extended real. -/
abbrev two : EReal := Ideal.ofBits .f32 0x40000000#32

/-- The squared-distance table of whole arrays: norms `s1`, `s2` of shape [8, 4096], points `x`, `y` of shape [8, 4096, 128]. -/
def dist (s1 s2 : (⟨2, ![8, 4096]⟩ : Shape).Idx → EReal) (x y : (⟨3, ![8, 4096, 128]⟩ : Shape).Idx → EReal)
    (b : Fin 8) (i j : Fin 4096) : EReal :=
  (s1 (ix2 b i) + s2 (ix2 b j)) - two * ∑ k : Fin 128, x (ix3 b i k) * y (ix3 b j k)

/-- The same table on one tile: norms of shape [8, 512], points of shape [8, 512, 128]. -/
def tile (u v : (⟨2, ![8, 512]⟩ : Shape).Idx → EReal) (x y : (⟨3, ![8, 512, 128]⟩ : Shape).Idx → EReal)
    (b : Fin 8) (r q : Fin 512) : EReal :=
  (u (ix2 b r) + v (ix2 b q)) - two * ∑ k : Fin 128, x (ix3 b r k) * y (ix3 b q k)

/-- Nearest second point of first point `i`: the minimum of row `i` of the table. -/
def nearest1 (d : Fin 8 → Fin 4096 → Fin 4096 → EReal) (b : Fin 8) (i : Fin 4096) : EReal := minFrom top fun j => d b i j

/-- Nearest first point of second point `j`: the minimum of column `j` of the table. -/
def nearest2 (d : Fin 8 → Fin 4096 → Fin 4096 → EReal) (b : Fin 8) (j : Fin 4096) : EReal := minFrom top fun i => d b i j

/-- The squared norms as both programs compute them before anything else: the sum over the 128 coordinates of the
    squares, started from the zero pattern.  The shape facts are parameters: each program supplies its own proofs. -/
def sqnorm (hn : (⟨3, ![8, 4096, 128]⟩ : Shape).ReducesTo [2] ⟨2, ![8, 4096]⟩) (h0 : 0 < (⟨0, ![]⟩ : Shape).numel)
    (a : FVec Ideal ⟨3, ![8, 4096, 128]⟩ .f32) : FVec Ideal ⟨2, ![8, 4096]⟩ .f32 :=
  Host.reduceAdd (F := Ideal) (mulf (F := Ideal) a a) (constant (F := Ideal) ⟨0, ![]⟩ .f32 0x00000000#32) hn h0

/-- The last lines of both programs: the mean of the first array plus the mean of the second, each a sum over all
    8·4096 entries divided by the pattern of 32768. -/
def twoMeans (hm : (⟨2, ![8, 4096]⟩ : Shape).ReducesTo [0, 1] ⟨0, ![]⟩) (h0 : 0 < (⟨0, ![]⟩ : Shape).numel)
    (u v : FVec Ideal ⟨2, ![8, 4096]⟩ .f32) : FVec Ideal ⟨0, ![]⟩ .f32 :=
  addf (F := Ideal)
    (Host.divf (F := Ideal) (Host.reduceAdd (F := Ideal) u (constant (F := Ideal) ⟨0, ![]⟩ .f32 0x00000000#32) hm h0)
      (constant (F := Ideal) ⟨0, ![]⟩ .f32 0x47000000#32))
    (Host.divf (F := Ideal) (Host.reduceAdd (F := Ideal) v (constant (F := Ideal) ⟨0, ![]⟩ .f32 0x00000000#32) hm h0)
      (constant (F := Ideal) ⟨0, ![]⟩ .f32 0x47000000#32))

/-- The nearest-neighbour arrays of a table. -/
def nearArr1 (d : Fin 8 → Fin 4096 → Fin 4096 → EReal) : FVec Ideal ⟨2, ![8, 4096]⟩ .f32 :=
  fun p => nearest1 d ⟨(p 0).val, (p 0).isLt⟩ ⟨(p 1).val, (p 1).isLt⟩
def nearArr2 (d : Fin 8 → Fin 4096 → Fin 4096 → EReal) : FVec Ideal ⟨2, ![8, 4096]⟩ .f32 :=
  fun p => nearest2 d ⟨(p 0).val, (p 0).isLt⟩ ⟨(p 1).val, (p 1).isLt⟩

/-- The whole result, as a function of the two argument arrays. -/
def value (hn : (⟨3, ![8, 4096, 128]⟩ : Shape).ReducesTo [2] ⟨2, ![8, 4096]⟩)
    (hm : (⟨2, ![8, 4096]⟩ : Shape).ReducesTo [0, 1] ⟨0, ![]⟩) (h0 : 0 < (⟨0, ![]⟩ : Shape).numel)
    (a0 a1 : FVec Ideal ⟨3, ![8, 4096, 128]⟩ .f32) : FVec Ideal ⟨0, ![]⟩ .f32 :=
  twoMeans hm h0 (nearArr1 (dist (sqnorm hn h0 a0) (sqnorm hn h0 a1) a0 a1))
    (nearArr2 (dist (sqnorm hn h0 a0) (sqnorm hn h0 a1) a0 a1))

end Chamfer

end
-- ==== Proof.StepValue.lean ====
/-
  One grid step's arithmetic, read at an index, on the extended reals.

  The step's table entry at (b, r, q) is `(u[b,r] + v[b,q]) − 2·Σₖ x[b,r,k]·y[b,q,k]` of the four blocks it loads: the
  column of norms is spread along the rows, the row of norms along the columns, and the matrix product into a zero
  accumulator is the plain sum of products.  The lowered running minimum at (b, r) is the smaller of the carried
  value and the minimum of row r of the table; the block written to the second output holds at (·, b, q) the minimum
  of column q.  The reset value is the pattern of +∞ everywhere.
-/
import proofs.«100955_j8821862826558_2_alg».proof.Proof.Gen.KernelIdeal.Skeleton
import proofs.«100955_j8821862826558_2_alg».proof.Proof.Spec
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

open Idealize.ShloMosaic Idealize.ShloMosaic.TcCoe Idealize.SL.Sem

namespace Cert.KernelIdeal.StepValue

open Cert.KernelIdeal Cert.KernelIdeal.Gen Idealize.ShloMosaic.ValueIdx Chamfer

/-- A column of norms spread along the rows of the table. -/
theorem spread_rows (u : FVec Ideal S8x512 .f32) (h0 : S8x512.ShapeCasts S8x512) (h1 : S8x512.ShapeCasts S8x512x1)
    (h2 : S8x512x1.Broadcasts S8x512x512) (b : Fin 8) (r q : Fin 512) :
    broadcastTo S8x512x512 (shapeCast S8x512x1 (shapeCast S8x512 u h0) h1) h2 (ix3 b r q) = u (ix2 b r) := by
  rw [shapeCast_self]
  refine (broadcastTo_apply _ h2 (ix3 b r q) (ix3 b r (0 : Fin 1)) (fun a => ?_)).trans ?_
  · match a with
    | ⟨0, _⟩ => rfl
    | ⟨1, _⟩ => rfl
    | ⟨2, _⟩ => rfl
  · exact shapeCast_apply u h1 _ _ (by
      rw [Shape.rowMajor_val_two, Shape.rowMajor_val_three]
      show b.val * 512 + r.val = (b.val * 512 + r.val) * 1 + 0
      omega)

/-- A row of norms spread along the columns of the table. -/
theorem spread_cols (v : FVec Ideal S8x512 .f32) (h0 : S8x512.ShapeCasts S8x512) (h1 : S8x512.ShapeCasts S8x1x512)
    (h2 : S8x1x512.Broadcasts S8x512x512) (b : Fin 8) (r q : Fin 512) :
    broadcastTo S8x512x512 (shapeCast S8x1x512 (shapeCast S8x512 v h0) h1) h2 (ix3 b r q) = v (ix2 b q) := by
  rw [shapeCast_self]
  refine (broadcastTo_apply _ h2 (ix3 b r q) (ix3 b (0 : Fin 1) q) (fun a => ?_)).trans ?_
  · match a with
    | ⟨0, _⟩ => rfl
    | ⟨1, _⟩ => rfl
    | ⟨2, _⟩ => rfl
  · exact shapeCast_apply v h1 _ _ (by
      rw [Shape.rowMajor_val_two, Shape.rowMajor_val_three]
      show b.val * 512 + q.val = (b.val * 1 + 0) * 512 + q.val
      omega)

/-- Where the matrix product reads its operands: the batch and row (or column) coordinates come from the output
    index, the last one from the contraction index. -/
theorem lhs_0 (i : S8x512x512.Idx) (p : dot_S8x512x128_S8x512x128_S8x512x512_2_2_1_1_0_0.contr.Idx) : (dot_S8x512x128_S8x512x128_S8x512x512_2_2_1_1_0_0.lhsIdx i p 0).val = (i 0).val := by
  unfold DotDims.lhsIdx
  rw [dif_pos (show (0 : Fin S8x512x128.rank) ∈ dot_S8x512x128_S8x512x128_S8x512x512_2_2_1_1_0_0.lhsBatch by decide)]
  rfl
theorem lhs_1 (i : S8x512x512.Idx) (p : dot_S8x512x128_S8x512x128_S8x512x512_2_2_1_1_0_0.contr.Idx) : (dot_S8x512x128_S8x512x128_S8x512x512_2_2_1_1_0_0.lhsIdx i p 1).val = (i 1).val := by
  unfold DotDims.lhsIdx
  rw [dif_neg (show ¬(1 : Fin S8x512x128.rank) ∈ dot_S8x512x128_S8x512x128_S8x512x512_2_2_1_1_0_0.lhsBatch by decide), dif_pos (show (1 : Fin S8x512x128.rank) ∈ dot_S8x512x128_S8x512x128_S8x512x512_2_2_1_1_0_0.lhsNonContracting by decide)]
  rfl
theorem lhs_2 (i : S8x512x512.Idx) (p : dot_S8x512x128_S8x512x128_S8x512x512_2_2_1_1_0_0.contr.Idx) : (dot_S8x512x128_S8x512x128_S8x512x512_2_2_1_1_0_0.lhsIdx i p 2).val = (p ⟨0, by decide⟩).val :=
  dot_S8x512x128_S8x512x128_S8x512x512_2_2_1_1_0_0.lhsIdx_val_of_single rfl i p
theorem rhs_0 (i : S8x512x512.Idx) (p : dot_S8x512x128_S8x512x128_S8x512x512_2_2_1_1_0_0.contr.Idx) : (dot_S8x512x128_S8x512x128_S8x512x512_2_2_1_1_0_0.rhsIdx i p 0).val = (i 0).val := by
  unfold DotDims.rhsIdx
  rw [dif_pos (show (0 : Fin S8x512x128.rank) ∈ dot_S8x512x128_S8x512x128_S8x512x512_2_2_1_1_0_0.rhsBatch by decide)]
  rfl
theorem rhs_1 (i : S8x512x512.Idx) (p : dot_S8x512x128_S8x512x128_S8x512x512_2_2_1_1_0_0.contr.Idx) : (dot_S8x512x128_S8x512x128_S8x512x512_2_2_1_1_0_0.rhsIdx i p 1).val = (i 2).val := by
  unfold DotDims.rhsIdx
  rw [dif_neg (show ¬(1 : Fin S8x512x128.rank) ∈ dot_S8x512x128_S8x512x128_S8x512x512_2_2_1_1_0_0.rhsBatch by decide), dif_pos (show (1 : Fin S8x512x128.rank) ∈ dot_S8x512x128_S8x512x128_S8x512x512_2_2_1_1_0_0.rhsNonContracting by decide)]
  rfl
theorem rhs_2 (i : S8x512x512.Idx) (p : dot_S8x512x128_S8x512x128_S8x512x512_2_2_1_1_0_0.contr.Idx) : (dot_S8x512x128_S8x512x128_S8x512x512_2_2_1_1_0_0.rhsIdx i p 2).val = (p ⟨0, by decide⟩).val :=
  dot_S8x512x128_S8x512x128_S8x512x512_2_2_1_1_0_0.rhsIdx_val_of_single rfl i p

/-- The matrix product into a zero accumulator is the inner product of the two points. -/
theorem inner_apply (x y : FVec Ideal S8x512x128 .bf16) (h0 : S8x512x128.ShapeCasts S8x512x128) (b : Fin 8) (r q : Fin 512) :
    matmul dot_S8x512x128_S8x512x128_S8x512x512_2_2_1_1_0_0 none (shapeCast S8x512x128 x h0) (shapeCast S8x512x128 y h0) (constant S8x512x512 .f32 0x00000000#32) (ix3 b r q)
      = ∑ k : Fin 128, x (ix3 b r k) * y (ix3 b q k) := by
  rw [shapeCast_self, shapeCast_self]
  refine (Ideal.matmul_constant_zero_apply dot_S8x512x128_S8x512x128_S8x512x512_2_2_1_1_0_0 none x y (ix3 b r q)).trans ?_
  rw [← Equiv.sum_comp (contrEquiv1 dot_S8x512x128_S8x512x128_S8x512x512_2_2_1_1_0_0 128 rfl rfl).symm]
  refine Finset.sum_congr rfl fun k _ => ?_
  have hk := contrEquiv1_symm_val dot_S8x512x128_S8x512x128_S8x512x512_2_2_1_1_0_0 128 rfl rfl k
  have el : dot_S8x512x128_S8x512x128_S8x512x512_2_2_1_1_0_0.lhsIdx (ix3 b r q) ((contrEquiv1 dot_S8x512x128_S8x512x128_S8x512x512_2_2_1_1_0_0 128 rfl rfl).symm k) = ix3 b r k := funext fun a => Fin.ext (by
    match a with
    | ⟨0, _⟩ => exact lhs_0 _ _
    | ⟨1, _⟩ => exact lhs_1 _ _
    | ⟨2, _⟩ => exact (lhs_2 _ _).trans hk)
  have er : dot_S8x512x128_S8x512x128_S8x512x512_2_2_1_1_0_0.rhsIdx (ix3 b r q) ((contrEquiv1 dot_S8x512x128_S8x512x128_S8x512x512_2_2_1_1_0_0 128 rfl rfl).symm k) = ix3 b q k := funext fun a => Fin.ext (by
    match a with
    | ⟨0, _⟩ => exact rhs_0 _ _
    | ⟨1, _⟩ => exact rhs_1 _ _
    | ⟨2, _⟩ => exact (rhs_2 _ _).trans hk)
  rw [el, er]

/-- The table entry one grid step forms. -/
theorem table_apply (x y : FVec Ideal S8x512x128 .bf16) (u v : FVec Ideal S8x512 .f32) (b : Fin 8) (r q : Fin 512) :
    k0_pay2 (F := Ideal) x y u v (ix3 b r q) = tile u v x y b r q := by
  unfold k0_pay2 tile
  show (broadcastTo S8x512x512 _ _ (ix3 b r q) + broadcastTo S8x512x512 _ _ (ix3 b r q))
      - (Ideal.ofBits .f32 0x40000000#32 * matmul dot_S8x512x128_S8x512x128_S8x512x512_2_2_1_1_0_0 none _ _ _ (ix3 b r q)) = _
  rw [spread_rows, spread_cols, inner_apply]

/-- A minimum along the table's columns index (the last axis), read at (b, r). -/
theorem rowmin_apply (T : FVec Ideal S8x512x512 .f32) (h : S8x512x512.Reduces [2] S8x512) (hφ : FKind.Formats .f32)
    (hacc : (0x7F800000#32 : BitVec 32) = FKind.minimumf.neutral .f32 hφ) (b : Fin 8) (r : Fin 512) :
    multiReduction .minimumf [2] S8x512 T 0x7F800000#32 h hφ hacc (ix2 b r) = minFrom top fun q : Fin 512 => T (ix3 b r q) := by
  refine (multiReduction_minimumf_eq_fold T _ h hφ hacc (ix2 b r)).trans ?_
  refine (h.fold_filter_drop_single FloatOps.minimumf _ T (ix2 b r)).trans ?_
  unfold minFrom
  refine congrArg (fun f => Finset.univ.fold min top f) (funext fun q => ?_)
  exact congrArg T (funext fun a => Fin.ext (by match a with | ⟨0, _⟩ => rfl | ⟨1, _⟩ => rfl | ⟨2, _⟩ => rfl))

/-- A minimum along the table's rows index (the middle axis), read at (b, q). -/
theorem colmin_apply (T : FVec Ideal S8x512x512 .f32) (h : S8x512x512.Reduces [1] S8x512) (hφ : FKind.Formats .f32)
    (hacc : (0x7F800000#32 : BitVec 32) = FKind.minimumf.neutral .f32 hφ) (b : Fin 8) (q : Fin 512) :
    multiReduction .minimumf [1] S8x512 T 0x7F800000#32 h hφ hacc (ix2 b q) = minFrom top fun r : Fin 512 => T (ix3 b r q) := by
  refine (multiReduction_minimumf_eq_fold T _ h hφ hacc (ix2 b q)).trans ?_
  refine (h.fold_filter_drop_single FloatOps.minimumf _ T (ix2 b q)).trans ?_
  unfold minFrom
  refine congrArg (fun f => Finset.univ.fold min top f) (funext fun r => ?_)
  exact congrArg T (funext fun a => Fin.ext (by match a with | ⟨0, _⟩ => rfl | ⟨1, _⟩ => rfl | ⟨2, _⟩ => rfl))

/-- The reset value is the pattern of +∞ at every entry. -/
theorem reset_apply (b : Fin 8) (r : Fin 512) : k0_pay1 (F := Ideal) (ix2 b r) = top := by
  unfold k0_pay1
  rw [shapeCast_self]
  rfl

/-- The lowered running minimum: the smaller of the carried value and the minimum of the table's row. -/
theorem lowered_apply (x y : FVec Ideal S8x512x128 .bf16) (u v acc : FVec Ideal S8x512 .f32) (b : Fin 8) (r : Fin 512) :
    k0_pay3 (F := Ideal) x y u v acc (ix2 b r) = min (acc (ix2 b r)) (minFrom top fun q => tile u v x y b r q) := by
  unfold k0_pay3
  rw [shapeCast_self]
  exact congrArg (min (acc (ix2 b r))) ((rowmin_apply (k0_pay2 x y u v) _ _ _ b r).trans (by simp only [table_apply]))

/-- The block written to the second output: the minimum of the table's column. -/
theorem colmins_apply (x y : FVec Ideal S8x512x128 .bf16) (u v : FVec Ideal S8x512 .f32) (w : Fin 1) (b : Fin 8) (q : Fin 512) :
    k0_pay4 (F := Ideal) x y u v (ix3 w b q) = minFrom top fun r => tile u v x y b r q := by
  unfold k0_pay4
  refine (shapeCast_ab_1ab_apply _ _ w b q).trans ?_
  exact (colmin_apply (k0_pay2 x y u v) _ _ _ b q).trans (by simp only [table_apply])

end Cert.KernelIdeal.StepValue

end
-- ==== Proof.Tiles.lean ====
/-
  Which entries of the whole arrays a grid step's blocks are.

  The 64 grid steps are numbered row by row: step t is the pair (n, m) = (t / 8, t mod 8).  It sees rows
  512·n … 512·n + 511 of the first points and of their squared norms, and rows 512·m … 512·m + 511 of the second
  points and of theirs.  So the tile table the step forms is the part of the whole squared-distance table with first
  points in tile n and second points in tile m.
-/
import proofs.«100955_j8821862826558_2_alg».proof.Proof.Gen.KernelIdeal.Frame
import proofs.«100955_j8821862826558_2_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem

namespace Cert.KernelIdeal.Tiles

open Cert.KernelIdeal Cert.KernelIdeal.Gen Idealize.ShloMosaic.ValueIdx Chamfer
open Idealize.ShloMosaic.Pipeline (Dat)

variable (m : (ℓ : Loc nD τ sig) → Buf (Elt Ideal) ℓ)

/-- The tile of first points step `t` sees, -/
def rowTile (t : Fin cfg0.N) : Fin 8 := ⟨t.val / 8, by have := t.isLt; have hN : cfg0.N = 64 := N_0; omega⟩
/-- and the tile of second points. -/
def colTile (t : Fin cfg0.N) : Fin 8 := ⟨t.val % 8, Nat.mod_lt _ (by decide)⟩

@[simp] theorem rowTile_val (t : Fin cfg0.N) : (rowTile t).val = t.val / 8 := rfl
@[simp] theorem colTile_val (t : Fin cfg0.N) : (colTile t).val = t.val % 8 := rfl

/-- The block indices of the four inputs, decided over the grid. -/
theorem index0 : ∀ t : Fin cfg0.N, win0_0.index t 0 = 0 ∧ win0_0.index t 1 = t.val / 8 ∧ win0_0.index t 2 = 0 :=
  (by decide +kernel : ∀ t : Fin grid0.N, win0_0.index t 0 = 0 ∧ win0_0.index t 1 = t.val / 8 ∧ win0_0.index t 2 = 0)
theorem index1 : ∀ t : Fin cfg0.N, win0_1.index t 0 = 0 ∧ win0_1.index t 1 = t.val % 8 ∧ win0_1.index t 2 = 0 :=
  (by decide +kernel : ∀ t : Fin grid0.N, win0_1.index t 0 = 0 ∧ win0_1.index t 1 = t.val % 8 ∧ win0_1.index t 2 = 0)
theorem index2 : ∀ t : Fin cfg0.N, win0_2.index t 0 = 0 ∧ win0_2.index t 1 = t.val / 8 :=
  (by decide +kernel : ∀ t : Fin grid0.N, win0_2.index t 0 = 0 ∧ win0_2.index t 1 = t.val / 8)
theorem index3 : ∀ t : Fin cfg0.N, win0_3.index t 0 = 0 ∧ win0_3.index t 1 = t.val % 8 :=
  (by decide +kernel : ∀ t : Fin grid0.N, win0_3.index t 0 = 0 ∧ win0_3.index t 1 = t.val % 8)

/-- The first points' block. -/
theorem points1_apply (c : Dev nD) (t : Fin cfg0.N) (b : Fin 8) (r : Fin 512) (k : Fin 128) :
    (iblk m c 0 t : Vec Ideal S8x512x128 .bf16) (ix3 b r k) = V m c main_v4 (ix3 b (tileIdx (rowTile t) r) k) := by
  unfold iblk
  rw [View.read_apply]
  show V m c main_v4 _ = V m c main_v4 _
  refine congrArg (V m c main_v4) (funext fun a => Fin.ext ?_)
  match a with
  | ⟨0, _⟩ => show win0_0.index t 0 * 8 + 1 * b.val = b.val; rw [(index0 t).1]; omega
  | ⟨1, _⟩ => show win0_0.index t 1 * 512 + 1 * r.val = 512 * (t.val / 8) + r.val; rw [(index0 t).2.1]; omega
  | ⟨2, _⟩ => show win0_0.index t 2 * 128 + 1 * k.val = k.val; rw [(index0 t).2.2]; omega

/-- The second points' block. -/
theorem points2_apply (c : Dev nD) (t : Fin cfg0.N) (b : Fin 8) (q : Fin 512) (k : Fin 128) :
    (iblk m c 1 t : Vec Ideal S8x512x128 .bf16) (ix3 b q k) = V m c main_v5 (ix3 b (tileIdx (colTile t) q) k) := by
  unfold iblk
  rw [View.read_apply]
  show V m c main_v5 _ = V m c main_v5 _
  refine congrArg (V m c main_v5) (funext fun a => Fin.ext ?_)
  match a with
  | ⟨0, _⟩ => show win0_1.index t 0 * 8 + 1 * b.val = b.val; rw [(index1 t).1]; omega
  | ⟨1, _⟩ => show win0_1.index t 1 * 512 + 1 * q.val = 512 * (t.val % 8) + q.val; rw [(index1 t).2.1]; omega
  | ⟨2, _⟩ => show win0_1.index t 2 * 128 + 1 * k.val = k.val; rw [(index1 t).2.2]; omega

/-- The first points' squared norms. -/
theorem norms1_apply (c : Dev nD) (t : Fin cfg0.N) (b : Fin 8) (r : Fin 512) :
    (iblk m c 2 t : Vec Ideal S8x512 .f32) (ix2 b r) = V m c main_v1 (ix2 b (tileIdx (rowTile t) r)) := by
  unfold iblk
  rw [View.read_apply]
  show V m c main_v1 _ = V m c main_v1 _
  refine congrArg (V m c main_v1) (funext fun a => Fin.ext ?_)
  match a with
  | ⟨0, _⟩ => show win0_2.index t 0 * 8 + 1 * b.val = b.val; rw [(index2 t).1]; omega
  | ⟨1, _⟩ => show win0_2.index t 1 * 512 + 1 * r.val = 512 * (t.val / 8) + r.val; rw [(index2 t).2]; omega

/-- The second points' squared norms. -/
theorem norms2_apply (c : Dev nD) (t : Fin cfg0.N) (b : Fin 8) (q : Fin 512) :
    (iblk m c 3 t : Vec Ideal S8x512 .f32) (ix2 b q) = V m c main_v3 (ix2 b (tileIdx (colTile t) q)) := by
  unfold iblk
  rw [View.read_apply]
  show V m c main_v3 _ = V m c main_v3 _
  refine congrArg (V m c main_v3) (funext fun a => Fin.ext ?_)
  match a with
  | ⟨0, _⟩ => show win0_3.index t 0 * 8 + 1 * b.val = b.val; rw [(index3 t).1]; omega
  | ⟨1, _⟩ => show win0_3.index t 1 * 512 + 1 * q.val = 512 * (t.val % 8) + q.val; rw [(index3 t).2]; omega

/-- The four blocks step `t` loads, at their literal types. -/
abbrev pts1 (c : Dev nD) (t : Fin cfg0.N) : FVec Ideal S8x512x128 .bf16 := iblk m c 0 t
abbrev pts2 (c : Dev nD) (t : Fin cfg0.N) : FVec Ideal S8x512x128 .bf16 := iblk m c 1 t
abbrev nrm1 (c : Dev nD) (t : Fin cfg0.N) : FVec Ideal S8x512 .f32 := iblk m c 2 t
abbrev nrm2 (c : Dev nD) (t : Fin cfg0.N) : FVec Ideal S8x512 .f32 := iblk m c 3 t

/-- The whole squared-distance table, of the arrays as the region finds them. -/
def table (c : Dev nD) : Fin 8 → Fin 4096 → Fin 4096 → EReal :=
  dist (V m c main_v1) (V m c main_v3) (V m c main_v4) (V m c main_v5)

/-- The step's tile table is its part of the whole table. -/
theorem tile_eq (c : Dev nD) (t : Fin cfg0.N) (b : Fin 8) (r q : Fin 512) :
    tile (nrm1 m c t) (nrm2 m c t) (pts1 m c t) (pts2 m c t) b r q
      = table m c b (tileIdx (rowTile t) r) (tileIdx (colTile t) q) := by
  unfold tile table Chamfer.dist pts1 pts2 nrm1 nrm2
  rw [norms1_apply, norms2_apply]
  simp only [points1_apply, points2_apply]

end Cert.KernelIdeal.Tiles

end
-- ==== Proof.Steps.lean ====
/-
  What the running minimum and the two outputs' blocks hold after each grid step.

  Step t = (n, m) lowers the running row minimum of tile n by the row minima of the tile table (n, m); at m = 0 it
  first restarts it from +∞.  So after step (n, m) the running minimum at (b, r) is the minimum, over the second
  points of tiles 0 … m, of row 512·n + r of the whole table — by induction along the steps — and after m = 7 it is
  that row's minimum over all second points, which is what the step copies to the first output.  The block of the
  second output written at step (n, m) holds, at (·, b, q), the minimum over the first points of tile n of column
  512·m + q.
-/
import proofs.«100955_j8821862826558_2_alg».proof.Proof.CaseValues
import proofs.«100955_j8821862826558_2_alg».proof.Proof.StepValue
import proofs.«100955_j8821862826558_2_alg».proof.Proof.Tiles

set_option maxRecDepth 16384

noncomputable section

open Idealize.ShloMosaic Idealize.ShloMosaic.TcCoe Idealize.SL.Sem

namespace Cert.KernelIdeal.Steps

open Cert.KernelIdeal Cert.KernelIdeal.Gen Idealize.ShloMosaic.ValueIdx Chamfer
open Cert.KernelIdeal.CaseValues Cert.KernelIdeal.StepValue Cert.KernelIdeal.Tiles

variable (m : (ℓ : Loc nD τ sig) → Buf (Elt Ideal) ℓ)

/-! ## Each step's results as the step's arithmetic of its blocks -/

theorem acc_at_first (c : Dev nD) (t : Fin cfg0.N) (h0 : t.val % 8 = 0) (h1 : ¬t.val % 8 = 7) :
    (outsAt0 m c t.val t.isLt).2.2 = k0_pay3 (F := Ideal) (pts1 m c t) (pts2 m c t) (nrm1 m c t) (nrm2 m c t) (k0_pay1 (F := Ideal)) := by
  rw [outsAt0_A m c t h0 h1]
  dsimp only
  exact acc_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t)

theorem acc_at_middle (c : Dev nD) (t : Fin cfg0.N) (h0 : ¬t.val % 8 = 0) (h1 : ¬t.val % 8 = 7) :
    (outsAt0 m c t.val t.isLt).2.2 = k0_pay3 (F := Ideal) (pts1 m c t) (pts2 m c t) (nrm1 m c t) (nrm2 m c t) (outsAt0 m c (t.val - 1) (Nat.lt_of_le_of_lt (Nat.sub_le _ _) t.isLt)).2.2 := by
  rw [outsAt0_B m c t h0 h1]
  dsimp only
  exact acc_middle (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2

theorem acc_at_last (c : Dev nD) (t : Fin cfg0.N) (h0 : ¬t.val % 8 = 0) (h1 : t.val % 8 = 7) :
    (outsAt0 m c t.val t.isLt).2.2 = k0_pay3 (F := Ideal) (pts1 m c t) (pts2 m c t) (nrm1 m c t) (nrm2 m c t) (outsAt0 m c (t.val - 1) (Nat.lt_of_le_of_lt (Nat.sub_le _ _) t.isLt)).2.2 := by
  rw [outsAt0_C m c t h0 h1]
  dsimp only
  exact acc_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2

/-- At the last step of a row of steps the first output's block is the running minimum the step ends with. -/
theorem rows_at_last (c : Dev nD) (t : Fin cfg0.N) (h0 : ¬t.val % 8 = 0) (h1 : t.val % 8 = 7) :
    (outsAt0 m c t.val t.isLt).1 = (outsAt0 m c t.val t.isLt).2.2 := by
  rw [outsAt0_C m c t h0 h1]
  dsimp only
  exact (rows_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2).trans
    (acc_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2).symm

/-- At every step the second output's block is the column minima of the step's tile table. -/
theorem cols_at (c : Dev nD) (t : Fin cfg0.N) :
    (outsAt0 m c t.val t.isLt).2.1 = k0_pay4 (F := Ideal) (pts1 m c t) (pts2 m c t) (nrm1 m c t) (nrm2 m c t) := by
  by_cases h0 : t.val % 8 = 0
  · have h1 : ¬t.val % 8 = 7 := by omega
    rw [outsAt0_A m c t h0 h1]
    dsimp only
    exact cols_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t)
  · by_cases h1 : t.val % 8 = 7
    · rw [outsAt0_C m c t h0 h1]
      dsimp only
      exact cols_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2
    · rw [outsAt0_B m c t h0 h1]
      dsimp only
      exact cols_middle (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2

/-! ## The running minimum, by induction along the steps -/

/-- The lowered value at (b, r), over the whole table. -/
theorem lowered_at (c : Dev nD) (t : Fin cfg0.N) (acc : FVec Ideal S8x512 .f32) (b : Fin 8) (r : Fin 512) :
    k0_pay3 (F := Ideal) (pts1 m c t) (pts2 m c t) (nrm1 m c t) (nrm2 m c t) acc (ix2 b r)
      = min (acc (ix2 b r)) (minFrom top fun q => table m c b (tileIdx (rowTile t) r) (tileIdx (colTile t) q)) := by
  rw [lowered_apply]
  simp only [tile_eq]

/-- After step (n, m) the running minimum at (b, r) is the minimum of row 512·n + r of the table over the second
    points of tiles 0 … m. -/
theorem running (c : Dev nD) : ∀ (n : ℕ) (h : n < cfg0.N) (b : Fin 8) (r : Fin 512),
    MinUpTo top (fun j => table m c b (tileIdx (rowTile ⟨n, h⟩) r) j) (n % 8) ((outsAt0 m c n h).2.2 (ix2 b r))
  | 0, h, b, r => by
    rw [acc_at_first m c ⟨0, h⟩ rfl (by show ¬(0 : ℕ) % 8 = 7; decide), lowered_at, reset_apply]
    exact minUpTo_first top _ (colTile ⟨0, h⟩) rfl
  | n + 1, h, b, r => by
    have hN : cfg0.N = 64 := N_0
    by_cases h0 : (n + 1) % 8 = 0
    · have h1 : ¬(n + 1) % 8 = 7 := by omega
      rw [acc_at_first m c ⟨n + 1, h⟩ h0 h1, lowered_at, reset_apply, h0]
      exact minUpTo_first top _ (colTile ⟨n + 1, h⟩) h0
    · have ih := running c n (Nat.lt_of_succ_lt h) b r
      have hrow : rowTile ⟨n, Nat.lt_of_succ_lt h⟩ = rowTile ⟨n + 1, h⟩ := Fin.ext (by simp only [rowTile_val]; omega)
      rw [hrow] at ih
      have hstep : (outsAt0 m c (n + 1) h).2.2 (ix2 b r)
          = min ((outsAt0 m c n (Nat.lt_of_succ_lt h)).2.2 (ix2 b r))
              (minFrom top fun q => table m c b (tileIdx (rowTile ⟨n + 1, h⟩) r) (tileIdx (colTile ⟨n + 1, h⟩) q)) := by
        by_cases h1 : (n + 1) % 8 = 7
        · rw [acc_at_last m c ⟨n + 1, h⟩ h0 h1]
          exact lowered_at m c ⟨n + 1, h⟩ _ b r
        · rw [acc_at_middle m c ⟨n + 1, h⟩ h0 h1]
          exact lowered_at m c ⟨n + 1, h⟩ _ b r
      rw [hstep, show (n + 1) % 8 = n % 8 + 1 from by omega]
      exact minUpTo_next top _ (n % 8) _ ih (colTile ⟨n + 1, h⟩) (by simp only [colTile_val]; omega)

/-- So after the last step of a row of steps it is the nearest-neighbour value of the first point. -/
theorem running_last (c : Dev nD) (t : Fin cfg0.N) (h7 : t.val % 8 = 7) (b : Fin 8) (r : Fin 512) :
    (outsAt0 m c t.val t.isLt).2.2 (ix2 b r) = nearest1 (table m c) b (tileIdx (rowTile t) r) := by
  have h := running m c t.val t.isLt b r
  rw [h7] at h
  exact minUpTo_last top _ _ h

/-- The second output's block at (·, b, q): the minimum over the first points of tile n of column 512·m + q. -/
theorem cols_apply (c : Dev nD) (t : Fin cfg0.N) (w : Fin 1) (b : Fin 8) (q : Fin 512) :
    (outsAt0 m c t.val t.isLt).2.1 (ix3 w b q)
      = minFrom top fun r => table m c b (tileIdx (rowTile t) r) (tileIdx (colTile t) q) := by
  rw [cols_at, colmins_apply]
  simp only [tile_eq]

end Cert.KernelIdeal.Steps

end
-- ==== Proof.Arrays.lean ====
/-
  What the two output arrays hold when the grid is done.

  The first output, of shape [8, 4096], is written back once per row of steps, after its last step: block n receives
  the running minimum, which by then is the nearest-neighbour value of the first points of tile n.  The eight blocks
  tile the array, so the array ends holding, at (b, i), the minimum over all second points of row i of the table.
  The second output, of shape [8, 8, 4096], is written back at every step: block (n, ·, m) receives the column minima
  of tile table (n, m).  The 64 blocks tile it, so it ends holding, at (n, b, j), the minimum over the first points of
  tile n of column j of the table.
-/
import proofs.«100955_j8821862826558_2_alg».proof.Proof.Steps

set_option maxRecDepth 16384

noncomputable section

open Idealize.ShloMosaic Idealize.ShloMosaic.TcCoe Idealize.SL.Sem

namespace Cert.KernelIdeal.Arrays

open Cert.KernelIdeal Cert.KernelIdeal.Gen Idealize.ShloMosaic.ValueIdx Chamfer
open Cert.KernelIdeal.Tiles Cert.KernelIdeal.Steps
open Idealize.ShloMosaic.Pipeline (Dat)

variable (m : (ℓ : Loc nD τ sig) → Buf (Elt Ideal) ℓ)

/-- The first output array: nearest-neighbour values of the first points. -/
def near1 (c : Dev nD) : S8x4096.Idx → EReal := nearArr1 (table m c)

/-- The second output array: for each tile of first points, the column minima over that tile. -/
def partial2 (c : Dev nD) : S8x8x4096.Idx → EReal := fun p =>
  minFrom top fun r : Fin 512 => table m c ⟨(p 1).val, (p 1).isLt⟩ (tileIdx ⟨(p 0).val, (p 0).isLt⟩ r) ⟨(p 2).val, (p 2).isLt⟩

/-! ## The first output -/

theorem index4 : ∀ t : Fin cfg0.N, win0_4.index t 0 = 0 ∧ win0_4.index t 1 = t.val / 8 :=
  (by decide +kernel : ∀ t : Fin grid0.N, win0_4.index t 0 = 0 ∧ win0_4.index t 1 = t.val / 8)

/-- Every block of the first output is written back by some step. -/
theorem onto4 : ∀ n : Fin 8, ∃ t : Fin cfg0.N, (cfg0.win 4).flush t = true ∧ win0_4.index t 0 = 0 ∧ win0_4.index t 1 = n.val :=
  (by decide +kernel : ∀ n : Fin 8, ∃ t : Fin grid0.N, win0_4.flush t = true ∧ win0_4.index t 0 = 0 ∧ win0_4.index t 1 = n.val)

/-- What a step writes back to the first output is its block of the nearest-neighbour values. -/
theorem flushed4_eq (c : Dev nD) (t : Fin cfg0.N) (hf : (cfg0.win 4).flush t = true) :
    (dats m 0 c).flushed 4 t = ((cfg0.win 4).blk t).view.read (Elt Ideal) (near1 m c) := by
  have h7 : t.val % 8 = 7 := (flush0_4 t).mp hf
  have h0 : ¬t.val % 8 = 0 := by omega
  show (cfg0.win 4).cut (grid0.coords t) ((dats m 0 c).after 4 t) = _
  rw [after0_4, rows_at_last m c t h0 h7]
  funext y
  obtain ⟨b, r, rfl⟩ : ∃ (b : Fin 8) (r : Fin 512), y = ix2 b r := ⟨y 0, y 1, eq_ix2 y⟩
  show (outsAt0 m c t.val t.isLt).2.2 (ix2 b r) = near1 m c (((cfg0.win 4).blk t).view.emb (ix2 b r))
  rw [running_last m c t h7 b r]
  unfold near1 nearArr1
  congr 1 <;> apply Fin.ext
  · show b.val = win0_4.index t 0 * 8 + 1 * b.val
    rw [(index4 t).1]; omega
  · show 512 * (t.val / 8) + r.val = win0_4.index t 1 * 512 + 1 * r.val
    rw [(index4 t).2]; omega

theorem mem_blk4 (t : Fin cfg0.N) (i : S8x4096.Idx) :
    i ∈ ((cfg0.win 4).blk t).view.set ↔ ∀ a : Fin 2, win0_4.index t a * S8x512.size a ≤ (i a).val ∧ (i a).val < win0_4.index t a * S8x512.size a + S8x512.size a := by
  show i ∈ ((View.whole main_v6_0).slice (win0_4.rect t)).set ↔ _
  rw [View.set_slice_whole, Rect.mem_set_unit]
  exact Iff.rfl

/-- The written-back blocks tile the first output. -/
theorem cover4 (i : S8x4096.Idx) : ∃ t : Fin cfg0.N, (cfg0.win 4).flush t = true ∧ i ∈ ((cfg0.win 4).blk t).view.set := by
  have hi0 : (i 0).val < 8 := (i 0).isLt
  have hi1 : (i 1).val < 4096 := (i 1).isLt
  obtain ⟨t, hf, e0, e1⟩ := onto4 ⟨(i 1).val / 512, by omega⟩
  refine ⟨t, hf, ?_⟩
  rw [mem_blk4]
  intro a
  match a with
  | ⟨0, _⟩ =>
    show win0_4.index t 0 * 8 ≤ (i 0).val ∧ (i 0).val < win0_4.index t 0 * 8 + 8
    rw [e0]; omega
  | ⟨1, _⟩ =>
    show win0_4.index t 1 * 512 ≤ (i 1).val ∧ (i 1).val < win0_4.index t 1 * 512 + 512
    rw [e1]; dsimp only; omega

/-- The first output array after the grid. -/
theorem final4 (c : Dev nD) : (dats m 0 c).arrAt 4 cfg0.N = near1 m c :=
  (dats m 0 c).arrAt_eq_of_cover 4 (near1 m c) (flushed4_eq m c) cover4

/-! ## The second output -/

theorem index5 : ∀ t : Fin cfg0.N, win0_5.index t 0 = t.val / 8 ∧ win0_5.index t 1 = 0 ∧ win0_5.index t 2 = t.val % 8 :=
  (by decide +kernel : ∀ t : Fin grid0.N, win0_5.index t 0 = t.val / 8 ∧ win0_5.index t 1 = 0 ∧ win0_5.index t 2 = t.val % 8)

theorem onto5 : ∀ n k : Fin 8, ∃ t : Fin cfg0.N, win0_5.index t 0 = n.val ∧ win0_5.index t 1 = 0 ∧ win0_5.index t 2 = k.val :=
  (by decide +kernel : ∀ n k : Fin 8, ∃ t : Fin grid0.N, win0_5.index t 0 = n.val ∧ win0_5.index t 1 = 0 ∧ win0_5.index t 2 = k.val)

/-- What a step writes back to the second output is its block of the per-tile column minima. -/
theorem flushed5_eq (c : Dev nD) (t : Fin cfg0.N) :
    (dats m 0 c).flushed 5 t = ((cfg0.win 5).blk t).view.read (Elt Ideal) (partial2 m c) := by
  show (cfg0.win 5).cut (grid0.coords t) ((dats m 0 c).after 5 t) = _
  rw [after0_5]
  funext y
  obtain ⟨w, b, q, rfl⟩ : ∃ (w : Fin 1) (b : Fin 8) (q : Fin 512), y = ix3 w b q := ⟨y 0, y 1, y 2, eq_ix3 y⟩
  show (outsAt0 m c t.val t.isLt).2.1 (ix3 w b q) = partial2 m c (((cfg0.win 5).blk t).view.emb (ix3 w b q))
  rw [cols_apply m c t w b q]
  unfold partial2
  have hw : w.val = 0 := by omega
  have e1 : (⟨((((cfg0.win 5).blk t).view.emb (ix3 w b q)) 1).val, ((((cfg0.win 5).blk t).view.emb (ix3 w b q)) 1).isLt⟩ : Fin 8) = b :=
    Fin.ext (by show win0_5.index t 1 * 8 + 1 * b.val = b.val; rw [(index5 t).2.1]; omega)
  have e0 : (⟨((((cfg0.win 5).blk t).view.emb (ix3 w b q)) 0).val, ((((cfg0.win 5).blk t).view.emb (ix3 w b q)) 0).isLt⟩ : Fin 8) = rowTile t :=
    Fin.ext (by show win0_5.index t 0 * 1 + 1 * w.val = t.val / 8; rw [(index5 t).1, hw]; omega)
  have e2 : (⟨((((cfg0.win 5).blk t).view.emb (ix3 w b q)) 2).val, ((((cfg0.win 5).blk t).view.emb (ix3 w b q)) 2).isLt⟩ : Fin 4096) = tileIdx (colTile t) q :=
    Fin.ext (by show win0_5.index t 2 * 512 + 1 * q.val = 512 * (t.val % 8) + q.val; rw [(index5 t).2.2]; omega)
  rw [e0, e1, e2]

theorem mem_blk5 (t : Fin cfg0.N) (i : S8x8x4096.Idx) :
    i ∈ ((cfg0.win 5).blk t).view.set ↔ ∀ a : Fin 3, win0_5.index t a * S1x8x512.size a ≤ (i a).val ∧ (i a).val < win0_5.index t a * S1x8x512.size a + S1x8x512.size a := by
  show i ∈ ((View.whole main_v6_1).slice (win0_5.rect t)).set ↔ _
  rw [View.set_slice_whole, Rect.mem_set_unit]
  exact Iff.rfl

/-- The written-back blocks tile the second output. -/
theorem cover5 (i : S8x8x4096.Idx) : ∃ t : Fin cfg0.N, (cfg0.win 5).flush t = true ∧ i ∈ ((cfg0.win 5).blk t).view.set := by
  have hi0 : (i 0).val < 8 := (i 0).isLt
  have hi1 : (i 1).val < 8 := (i 1).isLt
  have hi2 : (i 2).val < 4096 := (i 2).isLt
  obtain ⟨t, e0, e1, e2⟩ := onto5 ⟨(i 0).val, hi0⟩ ⟨(i 2).val / 512, by omega⟩
  refine ⟨t, flush0_5 t, ?_⟩
  rw [mem_blk5]
  intro a
  match a with
  | ⟨0, _⟩ =>
    show win0_5.index t 0 * 1 ≤ (i 0).val ∧ (i 0).val < win0_5.index t 0 * 1 + 1
    rw [e0]; dsimp only; omega
  | ⟨1, _⟩ =>
    show win0_5.index t 1 * 8 ≤ (i 1).val ∧ (i 1).val < win0_5.index t 1 * 8 + 8
    rw [e1]; omega
  | ⟨2, _⟩ =>
    show win0_5.index t 2 * 512 ≤ (i 2).val ∧ (i 2).val < win0_5.index t 2 * 512 + 512
    rw [e2]; dsimp only; omega

/-- The second output array after the grid. -/
theorem final5 (c : Dev nD) : (dats m 0 c).arrAt 5 cfg0.N = partial2 m c :=
  (dats m 0 c).arrAt_eq_of_cover 5 (partial2 m c) (fun t _ => flushed5_eq m c t) cover5

end Cert.KernelIdeal.Arrays

end
-- ==== Proof.KernelValue.lean ====
/-
  The idealized kernel program as a whole: its result as a function of the two argument arrays.

  Before the grid the host forms the squared norms of both point sets and passes the points on in a narrower float
  format, which on exact values changes nothing.  So the table the grid works on is the squared-distance table of the
  argument arrays themselves.  After the grid the host takes, for each second point, the minimum over the eight row
  tiles of the per-tile column minima: tile by tile and then across tiles is the minimum over all first points.  The
  two means that follow are the same lines as the reference's.
-/
import proofs.«100955_j8821862826558_2_alg».proof.Proof.Arrays
import Idealize.ShloMosaic.Lib.StableHlo.Run
import Idealize.ShloMosaic.PureOps.Ideal.Laws

set_option maxRecDepth 16384

noncomputable section

open Idealize.ShloMosaic Idealize.ShloMosaic.TcCoe Idealize.SL.Sem

namespace Cert.KernelIdeal.Whole

open Cert.KernelIdeal Cert.KernelIdeal.Gen Idealize.ShloMosaic.ValueIdx Chamfer
open Cert.KernelIdeal.Tiles Cert.KernelIdeal.Steps Cert.KernelIdeal.Arrays
open Idealize.ShloMosaic.Pipeline (Dat)

variable (m : (ℓ : Loc nD τ sig) → Buf (Elt Ideal) ℓ) (ρ : Dev nD → PrngReg)

/-! ## Before the grid -/

theorem pre_norms1 (c : Dev nD) :
    V m c main_v1 = sqnorm reducesTo_S8x4096x128_S8x4096_d2 h_S_ (m ((c : Thread nD τ).loc main_arg0)) := by
  show StableHlo.after hostOps0 (fun b => m (c, b)) (Proc.devRef .tc main_v1) = _
  after_results
  rfl

theorem pre_norms2 (c : Dev nD) :
    V m c main_v3 = sqnorm reducesTo_S8x4096x128_S8x4096_d2 h_S_ (m ((c : Thread nD τ).loc main_arg1)) := by
  show StableHlo.after hostOps0 (fun b => m (c, b)) (Proc.devRef .tc main_v3) = _
  after_results
  rfl

theorem pre_points1 (c : Dev nD) : (V m c main_v4 : S8x4096x128.Idx → EReal) = (m ((c : Thread nD τ).loc main_arg0)) := by
  show StableHlo.after hostOps0 (fun b => m (c, b)) (Proc.devRef .tc main_v4) = _
  after_results
  rfl

theorem pre_points2 (c : Dev nD) : (V m c main_v5 : S8x4096x128.Idx → EReal) = (m ((c : Thread nD τ).loc main_arg1)) := by
  show StableHlo.after hostOps0 (fun b => m (c, b)) (Proc.devRef .tc main_v5) = _
  after_results
  rfl

/-- The table the grid works on is the squared-distance table of the argument arrays. -/
theorem table_eq (c : Dev nD) :
    table m c = dist (sqnorm reducesTo_S8x4096x128_S8x4096_d2 h_S_ (m ((c : Thread nD τ).loc main_arg0))) (sqnorm reducesTo_S8x4096x128_S8x4096_d2 h_S_ (m ((c : Thread nD τ).loc main_arg1))) (m ((c : Thread nD τ).loc main_arg0)) (m ((c : Thread nD τ).loc main_arg1)) := by
  unfold table
  rw [pre_norms1, pre_norms2, pre_points1, pre_points2]

/-! ## After the grid -/

/-- Across the eight row tiles: the nearest-neighbour values of the second points. -/
theorem across_tiles (c : Dev nD) :
    Host.reduce (FloatOps.minimumf (F := Ideal) (φ := .f32)) (partial2 m c) (constant (F := Ideal) S_ .f32 0x7F800000#32) reducesTo_S8x8x4096_S8x4096_d0 h_S_
      = nearArr2 (table m c) := by
  funext p
  obtain ⟨b, j, rfl⟩ : ∃ (b : Fin 8) (j : Fin 4096), p = ix2 b j := ⟨p 0, p 1, eq_ix2 p⟩
  refine (Host.reduce_eq_fold_single (FloatOps.minimumf (F := Ideal) (φ := .f32)) (partial2 m c) (constant (F := Ideal) S_ .f32 0x7F800000#32)
    reducesTo_S8x8x4096_S8x4096_d0 (by decide) h_S_ (ix2 b j)).trans ?_
  refine Eq.trans ?_ (minFrom_tiles top fun i => table m c b i j)
  unfold minFrom
  refine congrArg (fun f => Finset.univ.fold min top f) (funext fun n => ?_)
  show partial2 m c _ = Finset.univ.fold min top _
  unfold partial2 minFrom
  refine congrArg (fun f => Finset.univ.fold min top f) (funext fun r => ?_)
  rfl

/-- The arrays the lines after the grid read. -/
theorem read4 (c : Dev nD) :
    Pipeline.withArrays spec0 c (V0 m c) (fun w => (dats m 0 c).arrAt w cfg0.N) (Proc.devRef .tc main_v6_0) = near1 m c :=
  (Pipeline.withArrays_arr spec0 launch0.win.arr_inj c _ _ 4).trans (final4 m c)
theorem read5 (c : Dev nD) :
    Pipeline.withArrays spec0 c (V0 m c) (fun w => (dats m 0 c).arrAt w cfg0.N) (Proc.devRef .tc main_v6_1) = partial2 m c :=
  (Pipeline.withArrays_arr spec0 launch0.win.arr_inj c _ _ 5).trans (final5 m c)

/-- The program's result. -/
theorem result (c : Dev nD) :
    Pipeline.afterTail₀ cfgs (dats m) 0 (V0 m) [hostOps1] c main_v12
      = value reducesTo_S8x4096x128_S8x4096_d2 reducesTo_S8x4096_S_d0_1 h_S_ (m ((c : Thread nD τ).loc main_arg0)) (m ((c : Thread nD τ).loc main_arg1)) := by
  unfold Pipeline.afterTail₀
  show StableHlo.after hostOps1 _ (Proc.devRef .tc main_v12) = _
  after_results
  rw [read4, read5, across_tiles]
  unfold value near1
  rw [table_eq]
  rfl

/-- Every weakly fair execution of the idealized kernel program ends with its result at that value and its
    arguments unchanged. -/
theorem run : θ_run defs (onTc (τ := τ) (main (F := Ideal))) ⟨m, fun _ => 0, ρ⟩ fun r => ∀ c : Dev nD,
      r.2.mem ((c.tc : Thread nD τ).loc main_v12)
        = value reducesTo_S8x4096x128_S8x4096_d2 reducesTo_S8x4096_S_d0_1 h_S_ (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v12 (Pipeline.mem_restRefs_of main_v12 (by decide) (by decide))).trans (result m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Whole

end
-- ==== Proof.RefValue.lean ====
/-
  The idealized reference, read as the specification.

  The reference forms the whole squared-distance table at once — the squared norms spread along rows and columns,
  minus twice the batched matrix product — and takes the minimum along its last axis for the first points and along
  its middle axis for the second points, each started from the pattern of +∞; then the two means.  Entry by entry
  that is the specification's table, and its two minima are the nearest-neighbour arrays.
-/
import proofs.«100955_j8821862826558_2_alg».proof.Proof.Gen.ReferenceIdeal.Read
import proofs.«100955_j8821862826558_2_alg».proof.Proof.Spec
import Idealize.ShloMosaic.PureOps.Ideal.Laws
import Idealize.ShloMosaic.Lib.ValueIdx

set_option maxRecDepth 16384

noncomputable section

open Idealize.ShloMosaic Idealize.ShloMosaic.TcCoe Idealize.SL.Sem

namespace Cert.ReferenceIdeal.RefValue

open Cert.ReferenceIdeal Cert.ReferenceIdeal.Gen Cert.ReferenceIdeal.Read Idealize.ShloMosaic.ValueIdx Chamfer

variable (x0 x1 : FVec Ideal S8x4096x128 .f32)

/-- The reference's table entry. -/
theorem table_apply (b : Fin 8) (i j : Fin 4096) :
    val_main_v12 (F := Ideal) x0 x1 (ix3 b i j) = (dist (sqnorm reducesTo_S8x4096x128_S8x4096_d2 h_S_ x0) (sqnorm reducesTo_S8x4096x128_S8x4096_d2 h_S_ x1) x0 x1) b i j := by
  rw [val_main_v12_apply, val_main_v9_apply, val_main_v11_apply, val_main_v7_apply, val_main_v8_apply, val_main_v5_apply,
    val_main_v6_apply, val_main_v10_apply, val_main_v4_apply]
  have e1 : idx_main_v5 (idx_main_v7 (ix3 b i j)) = ix2 b i :=
    funext fun a => Fin.ext (by match a with | ⟨0, _⟩ => rfl | ⟨1, _⟩ => rfl)
  have e2 : idx_main_v6 (idx_main_v8 (ix3 b i j)) = ix2 b j :=
    funext fun a => Fin.ext (by match a with | ⟨0, _⟩ => rfl | ⟨1, _⟩ => rfl)
  have e3 : ∀ k : Fin 128, lidx_main_v4 (ix3 b i j) k = ix3 b i k :=
    fun k => funext fun a => Fin.ext (by match a with | ⟨0, _⟩ => rfl | ⟨1, _⟩ => rfl | ⟨2, _⟩ => rfl)
  have e4 : ∀ k : Fin 128, ridx_main_v4 (ix3 b i j) k = ix3 b j k :=
    fun k => funext fun a => Fin.ext (by match a with | ⟨0, _⟩ => rfl | ⟨1, _⟩ => rfl | ⟨2, _⟩ => rfl)
  simp only [e1, e2, e3, e4]
  rfl

/-- The minimum along the last axis is the nearest second point. -/
theorem near1_apply (b : Fin 8) (i : Fin 4096) :
    val_main_v13 (F := Ideal) x0 x1 (ix2 b i) = nearest1 (dist (sqnorm reducesTo_S8x4096x128_S8x4096_d2 h_S_ x0) (sqnorm reducesTo_S8x4096x128_S8x4096_d2 h_S_ x1) x0 x1) b i := by
  unfold val_main_v13
  refine (Host.reduce_eq_fold_single (FloatOps.minimumf (F := Ideal) (φ := .f32)) (val_main_v12 (F := Ideal) x0 x1) (val_main_cst_2 (F := Ideal))
    reducesTo_S8x4096x4096_S8x4096_d2 (by decide) h_S_ (ix2 b i)).trans ?_
  unfold nearest1 minFrom
  refine congrArg (fun f => Finset.univ.fold min top f) (funext fun j => ?_)
  refine Eq.trans ?_ (table_apply x0 x1 b i j)
  exact congrArg (val_main_v12 (F := Ideal) x0 x1) (funext fun a => Fin.ext (by match a with | ⟨0, _⟩ => rfl | ⟨1, _⟩ => rfl | ⟨2, _⟩ => rfl))

/-- The minimum along the middle axis is the nearest first point. -/
theorem near2_apply (b : Fin 8) (j : Fin 4096) :
    val_main_v14 (F := Ideal) x0 x1 (ix2 b j) = nearest2 (dist (sqnorm reducesTo_S8x4096x128_S8x4096_d2 h_S_ x0) (sqnorm reducesTo_S8x4096x128_S8x4096_d2 h_S_ x1) x0 x1) b j := by
  unfold val_main_v14
  refine (Host.reduce_eq_fold_single (FloatOps.minimumf (F := Ideal) (φ := .f32)) (val_main_v12 (F := Ideal) x0 x1) (val_main_cst_3 (F := Ideal))
    reducesTo_S8x4096x4096_S8x4096_d1 (by decide) h_S_ (ix2 b j)).trans ?_
  unfold nearest2 minFrom
  refine congrArg (fun f => Finset.univ.fold min top f) (funext fun i => ?_)
  refine Eq.trans ?_ (table_apply x0 x1 b i j)
  exact congrArg (val_main_v12 (F := Ideal) x0 x1) (funext fun a => Fin.ext (by match a with | ⟨0, _⟩ => rfl | ⟨1, _⟩ => rfl | ⟨2, _⟩ => rfl))

/-- The reference's result is the specification's value of its arguments. -/
theorem value_eq :
    val_main_v19 (F := Ideal) x0 x1 = value reducesTo_S8x4096x128_S8x4096_d2 reducesTo_S8x4096_S_d0_1 h_S_ x0 x1 := by
  have e13 : val_main_v13 (F := Ideal) x0 x1 = nearArr1 (dist (sqnorm reducesTo_S8x4096x128_S8x4096_d2 h_S_ x0) (sqnorm reducesTo_S8x4096x128_S8x4096_d2 h_S_ x1) x0 x1) := funext fun p => by
    obtain ⟨b, i, rfl⟩ : ∃ (b : Fin 8) (i : Fin 4096), p = ix2 b i := ⟨p 0, p 1, eq_ix2 p⟩
    exact near1_apply x0 x1 b i
  have e14 : val_main_v14 (F := Ideal) x0 x1 = nearArr2 (dist (sqnorm reducesTo_S8x4096x128_S8x4096_d2 h_S_ x0) (sqnorm reducesTo_S8x4096x128_S8x4096_d2 h_S_ x1) x0 x1) := funext fun p => by
    obtain ⟨b, j, rfl⟩ : ∃ (b : Fin 8) (j : Fin 4096), p = ix2 b j := ⟨p 0, p 1, eq_ix2 p⟩
    exact near2_apply x0 x1 b j
  show twoMeans reducesTo_S8x4096_S_d0_1 h_S_ (val_main_v13 (F := Ideal) x0 x1) (val_main_v14 (F := Ideal) x0 x1) = _
  rw [e13, e14]
  rfl

end Cert.ReferenceIdeal.RefValue

end
-- ==== Proof.lean ====
/-
  Two-sided nearest-neighbour squared distance, averaged: the tiled kernel against the plain reference.

  For eight batches of 4096 first points and 4096 second points in 128 coordinates, both programs expand the squared
  distance as ‖x‖² + ‖y‖² − 2·⟨x, y⟩, take for every first point the minimum over the second points and for every
  second point the minimum over the first points, and add the two means.  The kernel walks an 8 × 8 grid of
  512 × 512 tiles of the distance table: a running minimum, restarted from +∞ at the first tile of each row of tiles,
  collects the row minima; the column minima of each tile are written out and combined across the row tiles
  afterwards.  On the extended reals a minimum taken tile by tile is the minimum over everything, a narrower float
  format is the same number, and a matrix product is the plain sum of products, so the two programs compute one
  function of the arguments.  The laws used are those of a linear order only: nothing depends on the inputs being
  finite.  The word-level program's claim is its frame; the idealization rewrote nothing.
-/
import proofs.«100955_j8821862826558_2_alg».proof.Defs
import proofs.«100955_j8821862826558_2_alg».proof.Proof.Gen.Kernel
import proofs.«100955_j8821862826558_2_alg».proof.Proof.Gen.Kernel.Skeleton
import proofs.«100955_j8821862826558_2_alg».proof.Proof.Gen.Kernel.Launch
import proofs.«100955_j8821862826558_2_alg».proof.Proof.Gen.Kernel.Points
import proofs.«100955_j8821862826558_2_alg».proof.Proof.Gen.Kernel.Frame
import proofs.«100955_j8821862826558_2_alg».proof.Proof.Gen.KernelIdeal
import proofs.«100955_j8821862826558_2_alg».proof.Proof.Gen.KernelIdeal.Skeleton
import proofs.«100955_j8821862826558_2_alg».proof.Proof.Gen.KernelIdeal.Launch
import proofs.«100955_j8821862826558_2_alg».proof.Proof.Gen.KernelIdeal.Points
import proofs.«100955_j8821862826558_2_alg».proof.Proof.Gen.KernelIdeal.Frame
import proofs.«100955_j8821862826558_2_alg».proof.Proof.Gen.ReferenceIdeal
import proofs.«100955_j8821862826558_2_alg».proof.Proof.Gen.ReferenceIdeal.Run
import proofs.«100955_j8821862826558_2_alg».proof.Proof.Gen.ReferenceIdeal.Read
import proofs.«100955_j8821862826558_2_alg».proof.Proof.Gen.Pre_finite_inputs
import proofs.«100955_j8821862826558_2_alg».proof.Proof.KernelValue
import proofs.«100955_j8821862826558_2_alg».proof.Proof.RefValue
import Idealize.ShloMosaic.Adequacy
import Idealize.ShloMosaic.Init

noncomputable section

namespace Cert.Proof

open Idealize.ShloMosaic Idealize.SL.Sem Cert.Kernel

/-- The word-level kernel program runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel and its idealization. -/
theorem preserves : Cert.preserves_Kernel_KernelIdeal := trivial

/-- Both idealized programs end at the specification's value of their arguments, and the arguments agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v19_eq (F := Ideal) _ _).trans ?_
  refine (Cert.ReferenceIdeal.RefValue.value_eq _ _).trans ?_
  rw [(hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
